-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x257x512 : Shape := ⟨3, ![128, 257, 512]⟩
abbrev S128x129x512 : Shape := ⟨3, ![128, 129, 512]⟩
abbrev S512x512 : Shape := ⟨2, ![512, 512]⟩
abbrev S_ : Shape := ⟨0, ![]⟩

class Facts : Prop where
  bcast_S_S128x257x512 : S_.BroadcastsInDim S128x257x512 (![] : Fin 0 → Fin S128x257x512.rank)
  reducesTo_S128x257x512_S_d0_1_2 : S128x257x512.ReducesTo [0, 1, 2] S_
  h_S_ : 0 < S_.numel
  bcast_S_S128x129x512 : S_.BroadcastsInDim S128x129x512 (![] : Fin 0 → Fin S128x129x512.rank)
  reducesTo_S128x129x512_S_d0_1_2 : S128x129x512.ReducesTo [0, 1, 2] S_
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S128x257x512 .f32) (main_arg1 : FVec F S128x129x512 .f32) (main_arg2 : FVec F S512x512 .f32) : IVec S_ 1 :=
  let main_v0 : FVec F S128x257x512 .f32 := Host.absf main_arg0
  let main_cst : FVec F S_ .f32 := constant S_ .f32 0x7F800000#32
  let main_v1 : FVec F S128x257x512 .f32 := broadcastInDim S128x257x512 ![] bcast_S_S128x257x512 main_cst
  let main_v2 : IVec S128x257x512 1 := cmpf .olt main_v0 main_v1
  let main_c : IVec S_ 1 := constantI S_ 1 1#1
  let main_v3 : IVec S_ 1 := (fun x v => Host.reduce IntOp.andi x v reducesTo_S128x257x512_S_d0_1_2 h_S_) main_v2 main_c
  let main_v4 : FVec F S128x129x512 .f32 := Host.absf main_arg1
  let main_cst_0 : FVec F S_ .f32 := constant S_ .f32 0x7F800000#32
  let main_v5 : FVec F S128x129x512 .f32 := broadcastInDim S128x129x512 ![] bcast_S_S128x129x512 main_cst_0
  let main_v6 : IVec S128x129x512 1 := cmpf .olt main_v4 main_v5
  let main_c_1 : IVec S_ 1 := constantI S_ 1 1#1
  let main_v7 : IVec S_ 1 := (fun x v => Host.reduce IntOp.andi x v reducesTo_S128x129x512_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  main_v13
-- ==== Kernel.lean ====
abbrev S128x257x512 : Shape := ⟨3, ![128, 257, 512]⟩
abbrev S128x129x512 : Shape := ⟨3, ![128, 129, 512]⟩
abbrev S512x512 : Shape := ⟨2, ![512, 512]⟩
abbrev S256 : Shape := ⟨1, ![256]⟩
abbrev S128 : Shape := ⟨1, ![128]⟩
abbrev S_ : Shape := ⟨0, ![]⟩
abbrev S1x512 : Shape := ⟨2, ![1, 512]⟩
abbrev S256x1 : Shape := ⟨2, ![256, 1]⟩
abbrev S256x512 : Shape := ⟨2, ![256, 512]⟩
abbrev S257x512 : Shape := ⟨2, ![257, 512]⟩
abbrev S128x1 : Shape := ⟨2, ![128, 1]⟩
abbrev S128x512 : Shape := ⟨2, ![128, 512]⟩
abbrev S129x512 : Shape := ⟨2, ![129, 512]⟩
abbrev S386x512 : Shape := ⟨2, ![386, 512]⟩
abbrev S128x386x512 : Shape := ⟨3, ![128, 386, 512]⟩
abbrev S16x386x512 : Shape := ⟨3, ![16, 386, 512]⟩
abbrev S1x386x512 : Shape := ⟨3, ![1, 386, 512]⟩

abbrev nBuf : Space → Nat
  | .hbm => 31
  | .vmem => 3
  | .smem => 0
  | _ => 0

abbrev bufTy : (tb : Table) → Fin (tcTables nBuf tb) → BufTy
  | .hbm, ⟨0, _⟩ => ⟨S128x257x512, .f32⟩
  | .hbm, ⟨1, _⟩ => ⟨S128x129x512, .f32⟩
  | .hbm, ⟨2, _⟩ => ⟨S512x512, .f32⟩
  | .hbm, ⟨3, _⟩ => ⟨S256, .i32⟩
  | .hbm, ⟨4, _⟩ => ⟨S128, .i32⟩
  | .hbm, ⟨5, _⟩ => ⟨S_, .f32⟩
  | .hbm, ⟨6, _⟩ => ⟨S1x512, .f32⟩
  | .hbm, ⟨7, _⟩ => ⟨S_, .i32⟩
  | .hbm, ⟨8, _⟩ => ⟨S256, .i32⟩
  | .hbm, ⟨9, _⟩ => ⟨S256, .i1⟩
  | .hbm, ⟨10, _⟩ => ⟨S_, .i32⟩
  | .hbm, ⟨11, _⟩ => ⟨S256, .i32⟩
  | .hbm, ⟨12, _⟩ => ⟨S256, .i32⟩
  | .hbm, ⟨13, _⟩ => ⟨S256, .i32⟩
  | .hbm, ⟨14, _⟩ => ⟨S256x1, .i32⟩
  | .hbm, ⟨15, _⟩ => ⟨S256x512, .f32⟩
  | .hbm, ⟨16, _⟩ => ⟨S257x512, .f32⟩
  | .hbm, ⟨17, _⟩ => ⟨S_, .f32⟩
  | .hbm, ⟨18, _⟩ => ⟨S1x512, .f32⟩
  | .hbm, ⟨19, _⟩ => ⟨S_, .i32⟩
  | .hbm, ⟨20, _⟩ => ⟨S128, .i32⟩
  | .hbm, ⟨21, _⟩ => ⟨S128, .i1⟩
  | .hbm, ⟨22, _⟩ => ⟨S_, .i32⟩
  | .hbm, ⟨23, _⟩ => ⟨S128, .i32⟩
  | .hbm, ⟨24, _⟩ => ⟨S128, .i32⟩
  | .hbm, ⟨25, _⟩ => ⟨S128, .i32⟩
  | .hbm, ⟨26, _⟩ => ⟨S128x1, .i32⟩
  | .hbm, ⟨27, _⟩ => ⟨S128x512, .f32⟩
  | .hbm, ⟨28, _⟩ => ⟨S129x512, .f32⟩
  | .hbm, ⟨29, _⟩ => ⟨S386x512, .f32⟩
  | .hbm, ⟨30, _⟩ => ⟨S128x386x512, .f32⟩
  | .local _ .vmem, ⟨0, _⟩ => ⟨S386x512, .f32⟩
  | .local _ .vmem, ⟨1, _⟩ => ⟨S16x386x512, .f32⟩
  | .local _ .vmem, ⟨2, _⟩ => ⟨S16x386x512, .f32⟩
  | _, _ => ⟨S128x257x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_cst : Ref sig .tc := ⟨.hbm, 5, rfl⟩
abbrev main_v0 : Ref sig .tc := ⟨.hbm, 6, rfl⟩
abbrev main_c_1 : Ref sig .tc := ⟨.hbm, 7, rfl⟩
abbrev main_v1 : Ref sig .tc := ⟨.hbm, 8, rfl⟩
abbrev main_v2 : Ref sig .tc := ⟨.hbm, 9, rfl⟩
abbrev main_c_2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_c_4 : Ref sig .tc := ⟨.hbm, 19, rfl⟩
abbrev main_v10 : Ref sig .tc := ⟨.hbm, 20, rfl⟩
abbrev main_v11 : Ref sig .tc := ⟨.hbm, 21, rfl⟩
abbrev main_c_5 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S386x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S16x386x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  bcast_S_S1x512 : S_.BroadcastsInDim S1x512 (![] : Fin 0 → Fin S1x512.rank)
  bcast_S_S256 : S_.BroadcastsInDim S256 (![] : Fin 0 → Fin S256.rank)
  bcast_S256_S256x1_0 : S256.BroadcastsInDim S256x1 (![0] : Fin 1 → Fin S256x1.rank)
  concatenates_S1x512_S256x512_S257x512_d0 : Shape.Concatenates [S1x512, S256x512] S257x512 0
  bcast_S_S128 : S_.BroadcastsInDim S128 (![] : Fin 0 → Fin S128.rank)
  bcast_S128_S128x1_0 : S128.BroadcastsInDim S128x1 (![0] : Fin 1 → Fin S128x1.rank)
  concatenates_S1x512_S128x512_S129x512_d0 : Shape.Concatenates [S1x512, S128x512] S129x512 0
  concatenates_S257x512_S129x512_S386x512_d0 : Shape.Concatenates [S257x512, S129x512] S386x512 0
  inb_S386x512_S386x512_0_0 : ∀ a, (![0, 0] : Fin 2 → Nat) a + S386x512.size a ≤ S386x512.size a
  h_S386x512 : 0 < S386x512.numel
  shapeCasts_S386x512_S386x512 : S386x512.ShapeCasts S386x512
  shapeCasts_S386x512_S1x386x512 : S386x512.ShapeCasts S1x386x512
  shapeCasts_S1x386x512_S1x386x512 : S1x386x512.ShapeCasts S1x386x512
  broadcasts_S1x386x512_S16x386x512 : S1x386x512.Broadcasts S16x386x512
  inb_S16x386x512_S16x386x512_0_0_0 : ∀ a, (![0, 0, 0] : Fin 3 → Nat) a + S16x386x512.size a ≤ S16x386x512.size a
  h_S16x386x512 : 0 < S16x386x512.numel
  gather_S512x512_S256x1_S256x512_1_0_n_n_0_1_1512_wf : GatherDims.WF S512x512 S256x1 S256x512 [1] [0] [] [0] [] 1 ![1, 512]
  gather_S512x512_S128x1_S128x512_1_0_n_n_0_1_1512_wf : GatherDims.WF S512x512 S128x1 S128x512 [1] [0] [] [0] [] 1 ![1, 512]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S386x512.size a ≤ S386x512.size a
  hwx0_0 : ∀ i : grid0.Coords, EltTy.bits .f32 = 32 ∨ (Rect.block (s := S386x512) S386x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x386x512.size a ≤ S128x386x512.size a
  hwx0_1 : ∀ i : grid0.Coords, EltTy.bits .f32 = 32 ∨ (Rect.block (s := S128x386x512) S16x386x512.size (cc0_transform_1 i) (hinb0_1 i)).WholeWords (EltTy.packing .f32)

variable [Facts₀]

def gather_S512x512_S256x1_S256x512_1_0_n_n_0_1_1512 : GatherDims S512x512 S256x1 S256x512 where
  offsetDims := [1]
  collapsedSliceDims := [0]
  operandBatchingDims := []
  startIndicesBatchingDims := []
  startIndexMap := [0]
  indexVectorDim := 1
  sliceSizes := ![1, 512]
  wf := gather_S512x512_S256x1_S256x512_1_0_n_n_0_1_1512_wf
def gather_S512x512_S128x1_S128x512_1_0_n_n_0_1_1512 : GatherDims S512x512 S128x1 S128x512 where
  offsetDims := [1]
  collapsedSliceDims := [0]
  operandBatchingDims := []
  startIndicesBatchingDims := []
  startIndexMap := [0]
  indexVectorDim := 1
  sliceSizes := ![1, 512]
  wf := gather_S512x512_S128x1_S128x512_1_0_n_n_0_1_1512_wf

abbrev win0_0 : Pipeline.Window sig grid0 :=
  Pipeline.Window.ofSpec (Memref.whole main_v18) S386x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v19) S16x386x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S128x257x512 : Shape := ⟨3, ![128, 257, 512]⟩
abbrev S128x129x512 : Shape := ⟨3, ![128, 129, 512]⟩
abbrev S512x512 : Shape := ⟨2, ![512, 512]⟩
abbrev S256 : Shape := ⟨1, ![256]⟩
abbrev S128 : Shape := ⟨1, ![128]⟩
abbrev S_ : Shape := ⟨0, ![]⟩
abbrev S1x512 : Shape := ⟨2, ![1, 512]⟩
abbrev S256x1 : Shape := ⟨2, ![256, 1]⟩
abbrev S256x512 : Shape := ⟨2, ![256, 512]⟩
abbrev S257x512 : Shape := ⟨2, ![257, 512]⟩
abbrev S128x1 : Shape := ⟨2, ![128, 1]⟩
abbrev S128x512 : Shape := ⟨2, ![128, 512]⟩
abbrev S129x512 : Shape := ⟨2, ![129, 512]⟩
abbrev S386x512 : Shape := ⟨2, ![386, 512]⟩
abbrev S1x386x512 : Shape := ⟨3, ![1, 386, 512]⟩
abbrev S128x386x512 : Shape := ⟨3, ![128, 386, 512]⟩

abbrev nBuf : Space → Nat
  | .hbm => 32
  | .vmem => 0
  | .smem => 0
  | _ => 0

abbrev bufTy : (tb : Table) → Fin (tcTables nBuf tb) → BufTy
  | .hbm, ⟨0, _⟩ => ⟨S128x257x512, .f32⟩
  | .hbm, ⟨1, _⟩ => ⟨S128x129x512, .f32⟩
  | .hbm, ⟨2, _⟩ => ⟨S512x512, .f32⟩
  | .hbm, ⟨3, _⟩ => ⟨S256, .i32⟩
  | .hbm, ⟨4, _⟩ => ⟨S128, .i32⟩
  | .hbm, ⟨5, _⟩ => ⟨S_, .f32⟩
  | .hbm, ⟨6, _⟩ => ⟨S1x512, .f32⟩
  | .hbm, ⟨7, _⟩ => ⟨S_, .i32⟩
  | .hbm, ⟨8, _⟩ => ⟨S256, .i32⟩
  | .hbm, ⟨9, _⟩ => ⟨S256, .i1⟩
  | .hbm, ⟨10, _⟩ => ⟨S_, .i32⟩
  | .hbm, ⟨11, _⟩ => ⟨S256, .i32⟩
  | .hbm, ⟨12, _⟩ => ⟨S256, .i32⟩
  | .hbm, ⟨13, _⟩ => ⟨S256, .i32⟩
  | .hbm, ⟨14, _⟩ => ⟨S256x1, .i32⟩
  | .hbm, ⟨15, _⟩ => ⟨S256x512, .f32⟩
  | .hbm, ⟨16, _⟩ => ⟨S257x512, .f32⟩
  | .hbm, ⟨17, _⟩ => ⟨S_, .f32⟩
  | .hbm, ⟨18, _⟩ => ⟨S1x512, .f32⟩
  | .hbm, ⟨19, _⟩ => ⟨S_, .i32⟩
  | .hbm, ⟨20, _⟩ => ⟨S128, .i32⟩
  | .hbm, ⟨21, _⟩ => ⟨S128, .i1⟩
  | .hbm, ⟨22, _⟩ => ⟨S_, .i32⟩
  | .hbm, ⟨23, _⟩ => ⟨S128, .i32⟩
  | .hbm, ⟨24, _⟩ => ⟨S128, .i32⟩
  | .hbm, ⟨25, _⟩ => ⟨S128, .i32⟩
  | .hbm, ⟨26, _⟩ => ⟨S128x1, .i32⟩
  | .hbm, ⟨27, _⟩ => ⟨S128x512, .f32⟩
  | .hbm, ⟨28, _⟩ => ⟨S129x512, .f32⟩
  | .hbm, ⟨29, _⟩ => ⟨S386x512, .f32⟩
  | .hbm, ⟨30, _⟩ => ⟨S1x386x512, .f32⟩
  | .hbm, ⟨31, _⟩ => ⟨S128x386x512, .f32⟩
  | _, _ => ⟨S128x257x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_cst : Ref sig .tc := ⟨.hbm, 5, rfl⟩
abbrev main_v0 : Ref sig .tc := ⟨.hbm, 6, rfl⟩
abbrev main_c_1 : Ref sig .tc := ⟨.hbm, 7, rfl⟩
abbrev main_v1 : Ref sig .tc := ⟨.hbm, 8, rfl⟩
abbrev main_v2 : Ref sig .tc := ⟨.hbm, 9, rfl⟩
abbrev main_c_2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_c_4 : Ref sig .tc := ⟨.hbm, 19, rfl⟩
abbrev main_v10 : Ref sig .tc := ⟨.hbm, 20, rfl⟩
abbrev main_v11 : Ref sig .tc := ⟨.hbm, 21, rfl⟩
abbrev main_c_5 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]

class Facts₀ : Prop where
  bcast_S_S1x512 : S_.BroadcastsInDim S1x512 (![] : Fin 0 → Fin S1x512.rank)
  bcast_S_S256 : S_.BroadcastsInDim S256 (![] : Fin 0 → Fin S256.rank)
  bcast_S256_S256x1_0 : S256.BroadcastsInDim S256x1 (![0] : Fin 1 → Fin S256x1.rank)
  concatenates_S1x512_S256x512_S257x512_d0 : Shape.Concatenates [S1x512, S256x512] S257x512 0
  bcast_S_S128 : S_.BroadcastsInDim S128 (![] : Fin 0 → Fin S128.rank)
  bcast_S128_S128x1_0 : S128.BroadcastsInDim S128x1 (![0] : Fin 1 → Fin S128x1.rank)
  concatenates_S1x512_S128x512_S129x512_d0 : Shape.Concatenates [S1x512, S128x512] S129x512 0
  concatenates_S257x512_S129x512_S386x512_d0 : Shape.Concatenates [S257x512, S129x512] S386x512 0
  bcast_S386x512_S1x386x512_1_2 : S386x512.BroadcastsInDim S1x386x512 (![1, 2] : Fin 2 → Fin S1x386x512.rank)
  bcast_S1x386x512_S128x386x512_0_1_2 : S1x386x512.BroadcastsInDim S128x386x512 (![0, 1, 2] : Fin 3 → Fin S128x386x512.rank)
  gather_S512x512_S256x1_S256x512_1_0_n_n_0_1_1512_wf : GatherDims.WF S512x512 S256x1 S256x512 [1] [0] [] [0] [] 1 ![1, 512]
  gather_S512x512_S128x1_S128x512_1_0_n_n_0_1_1512_wf : GatherDims.WF S512x512 S128x1 S128x512 [1] [0] [] [0] [] 1 ![1, 512]

variable [Facts₀]

def gather_S512x512_S256x1_S256x512_1_0_n_n_0_1_1512 : GatherDims S512x512 S256x1 S256x512 where
  offsetDims := [1]
  collapsedSliceDims := [0]
  operandBatchingDims := []
  startIndicesBatchingDims := []
  startIndexMap := [0]
  indexVectorDim := 1
  sliceSizes := ![1, 512]
  wf := gather_S512x512_S256x1_S256x512_1_0_n_n_0_1_1512_wf
def gather_S512x512_S128x1_S128x512_1_0_n_n_0_1_1512 : GatherDims S512x512 S128x1 S128x512 where
  offsetDims := [1]
  collapsedSliceDims := [0]
  operandBatchingDims := []
  startIndicesBatchingDims := []
  startIndexMap := [0]
  indexVectorDim := 1
  sliceSizes := ![1, 512]
  wf := gather_S512x512_S128x1_S128x512_1_0_n_n_0_1_1512_wf

class Facts : Prop extends Facts₀ where

variable [Facts]
-- ==== Proof.PosTable.lean ====
/-
  The table both programs broadcast.

  Write `pe` for the 512 × 512 table of encodings.  Two lists of row numbers are fixed constants of
  the programs: `0, 1, …, 255` (256 positions, one per step of the longer sequence) and
  `0, 2, …, 252, 255` (128 positions, the same span sampled at half the rate).  A row number that were
  negative would be taken modulo the table's height 512; none is.  Each list selects rows of `pe`, a
  row of zeros is put in front of each selection, and the two pieces are stacked: 1 + 256 + 1 + 128 = 386
  rows of 512 entries.  The result of either program is this table repeated for each of the 128 batch
  entries: entry (b, r, c) of the result is entry (r, c) of the table.

  No arithmetic on the entries of `pe` takes place anywhere, so nothing here depends on the entries being
  finite.
-/
import proofs.«161266_j21749714387279_2_alg».proof.Proof.Gen.KernelIdeal
import Idealize.ShloMosaic.Lib.Pipeline.Value
import Idealize.ShloMosaic.Lib.ValueIdx

noncomputable section

namespace Cert.PosTable

open Idealize.ShloMosaic Cert.KernelIdeal Cert.KernelIdeal.Gen

variable {F : FTy → Type} [FloatOps F]

/-- The 256 row numbers `0, 1, …, 255`. -/
def steps256 : (⟨S256, .i32⟩ : BufTy).Contents (Elt F) := fun i => lit0 (S256.rowMajor i)

/-- The 128 row numbers `0, 2, …, 252, 255`. -/
def steps128 : (⟨S128, .i32⟩ : BufTy).Contents (Elt F) := fun i => lit1 (S128.rowMajor i)

/-- The 256 row numbers as a column of start positions: a negative number is moved up by the height 512. -/
def starts256 : (⟨S256x1, .i32⟩ : BufTy).Contents (Elt F) :=
  broadcastInDim S256x1 ![0] bcast_S256_S256x1_0
    (select (cmpi .slt (steps256 (F := F)) (broadcastInDim S256 ![] bcast_S_S256 (constantI S_ 32 0#32)))
      (addi (steps256 (F := F)) (broadcastInDim S256 ![] bcast_S_S256 (constantI S_ 32 512#32)))
      (steps256 (F := F)))

/-- The 128 row numbers as a column of start positions, wrapped in the same way. -/
def starts128 : (⟨S128x1, .i32⟩ : BufTy).Contents (Elt F) :=
  broadcastInDim S128x1 ![0] bcast_S128_S128x1_0
    (select (cmpi .slt (steps128 (F := F)) (broadcastInDim S128 ![] bcast_S_S128 (constantI S_ 32 0#32)))
      (addi (steps128 (F := F)) (broadcastInDim S128 ![] bcast_S_S128 (constantI S_ 32 512#32)))
      (steps128 (F := F)))

/-- One row of 512 zeros. -/
def zeroRow : (⟨S1x512, .f32⟩ : BufTy).Contents (Elt F) :=
  broadcastInDim S1x512 ![] bcast_S_S1x512 (constant S_ .f32 0x00000000#32)

/-- A zero row above the 256 selected rows of `pe`. -/
def piece256 (pe : (⟨S512x512, .f32⟩ : BufTy).Contents (Elt F)) : (⟨S257x512, .f32⟩ : BufTy).Contents (Elt F) :=
  concatenate S257x512 0
    [⟨S1x512, zeroRow⟩, ⟨S256x512, Host.gather gather_S512x512_S256x1_S256x512_1_0_n_n_0_1_1512 pe (starts256 (F := F))⟩]
    concatenates_S1x512_S256x512_S257x512_d0

/-- A zero row above the 128 selected rows of `pe`. -/
def piece128 (pe : (⟨S512x512, .f32⟩ : BufTy).Contents (Elt F)) : (⟨S129x512, .f32⟩ : BufTy).Contents (Elt F) :=
  concatenate S129x512 0
    [⟨S1x512, zeroRow⟩, ⟨S128x512, Host.gather gather_S512x512_S128x1_S128x512_1_0_n_n_0_1_1512 pe (starts128 (F := F))⟩]
    concatenates_S1x512_S128x512_S129x512_d0

/-- THE TABLE: the two pieces stacked, 386 rows of 512 entries, as a function of `pe`. -/
def rows (pe : (⟨S512x512, .f32⟩ : BufTy).Contents (Elt F)) : (⟨S386x512, .f32⟩ : BufTy).Contents (Elt F) :=
  concatenate S386x512 0 [⟨S257x512, piece256 pe⟩, ⟨S129x512, piece128 pe⟩] concatenates_S257x512_S129x512_S386x512_d0

/-- Two stacks of two pieces each are equal when their pieces are. -/
theorem stack_congr {α : Type} {t : Shape} {ax : Fin t.rank} {sA sB : Shape} {a a' : sA.Idx → α} {b b' : sB.Idx → α}
    (h h' : Shape.Concatenates [sA, sB] t ax) (ha : a = a') (hb : b = b') :
    concatenate t ax [⟨sA, a⟩, ⟨sB, b⟩] h = concatenate t ax [⟨sA, a'⟩, ⟨sB, b'⟩] h' := by
  subst ha; subst hb; rfl

/-- The (row, column) part of a (batch, row, column) index. -/
abbrev rowCol (i : S128x386x512.Idx) : S386x512.Idx :=
  ValueIdx.ix2 (n0 := 386) (n1 := 512) ⟨(i 1).val, (i 1).isLt⟩ ⟨(i 2).val, (i 2).isLt⟩

/-- A table repeated for every batch entry: entry (b, r, c) is the table's entry (r, c). -/
def spread (tb : S386x512.Idx → Elt F .f32) : S128x386x512.Idx → Elt F .f32 := fun i => tb (rowCol i)

/-- Giving a table a leading axis of extent one and then stretching that axis to 128 repeats the table for every
    batch entry. -/
theorem broadcast_eq_spread (h1 : S386x512.BroadcastsInDim S1x386x512 (![1, 2] : Fin 2 → Fin S1x386x512.rank))
    (h2 : S1x386x512.BroadcastsInDim S128x386x512 (![0, 1, 2] : Fin 3 → Fin S128x386x512.rank))
    (tb : S386x512.Idx → Elt F .f32) :
    broadcastInDim S128x386x512 ![0, 1, 2] h2 (broadcastInDim S1x386x512 ![1, 2] h1 tb) = spread tb := by
  funext i
  have hi1 : (i 1).val < 386 := (i 1).isLt
  have hi2 : (i 2).val < 512 := (i 2).isLt
  refine (broadcastInDim_apply _ h2 _ i
    (ValueIdx.ix3 (n0 := 1) (n1 := 386) (n2 := 512) ⟨0, by omega⟩ ⟨(i 1).val, hi1⟩ ⟨(i 2).val, hi2⟩)
    (fun a => match a with
      | ⟨0, _⟩ => by show 0 = (if (1 : Nat) = 1 then 0 else (i 0).val); rw [if_pos rfl]
      | ⟨1, _⟩ => by show (i 1).val = (if (386 : Nat) = 1 then 0 else (i 1).val); rw [if_neg (by decide)]
      | ⟨2, _⟩ => by show (i 2).val = (if (512 : Nat) = 1 then 0 else (i 2).val); rw [if_neg (by decide)])).trans ?_
  refine (broadcastInDim_apply _ h1 _ _ (rowCol i)
    (fun a => match a with
      | ⟨0, _⟩ => by show (i 1).val = (if (386 : Nat) = 1 then 0 else (i 1).val); rw [if_neg (by decide)]
      | ⟨1, _⟩ => by show (i 2).val = (if (512 : Nat) = 1 then 0 else (i 2).val); rw [if_neg (by decide)])).trans ?_
  rfl

end Cert.PosTable

end
-- ==== Proof.KernelValue.lean ====
/-
  What the kernel's program leaves in its result array.

  The program first computes the 386 × 512 table on the host (PosTable.lean: `rows` of `pe`) and then
  runs a grid of 8 points.  At every point the whole table is the input block, and the output block is
  batch entries 16·t … 16·t + 15 of the result, all rows and columns.  The body copies the table into each
  of the block's 16 batch entries: entry (b, r, c) of the block is entry (r, c) of the table.

  So every point writes a block of ONE function of the result's index — the table read at (row, column) —
  and the 8 blocks tile the batch axis: batch entry b lies in the block of point b / 16.  Hence the whole
  result is the table repeated for every batch entry.
-/
import proofs.«161266_j21749714387279_2_alg».proof.Proof.Gen.KernelIdeal.Value
import proofs.«161266_j21749714387279_2_alg».proof.Proof.PosTable
import Idealize.ShloMosaic.Lib.Pipeline.Value
import Idealize.ShloMosaic.Lib.ValueIdx
import Idealize.ShloMosaic.Lib.StableHlo.Run

noncomputable section

namespace Cert.KernelIdeal.Repeated

open Cert.KernelIdeal Cert.KernelIdeal.Gen Idealize.ShloMosaic Idealize.ShloMosaic.TcCoe Idealize.SL.Sem
open Idealize.ShloMosaic.Pipeline (Dat)
open Cert.PosTable (rows spread rowCol)

variable {F : FTy → Type} [FloatOps F]
variable (m : (ℓ : Loc nD τ sig) → Buf (Elt F) ℓ) (ρ : Dev nD → PrngReg)

theorem origin2 : (![0, 0] : Fin 2 → Nat) = fun _ => 0 := funext fun a => by fin_cases a <;> rfl

/-- The body's output block, entry by entry: entry (b, r, c) is entry (r, c) of the block it loaded. -/
theorem block_apply (x0 : Vec F S386x512 .f32) (y : S16x386x512.Idx) : out0_1 x0 y = x0 (Value.ix1_0 y) := by
  unfold out0_1
  rw [Value.canon1_eq]
  show View.ld x0 r0_0 (Value.ix1_0 y) = _
  rw [View.ld_unit_zero origin2]

/-- Where each point's blocks sit: the input block is always the whole table; the output block of point `t` starts
    at batch entry `16 · t`, row 0, column 0.  Decided over the 8 points. -/
theorem block_positions : ∀ t : Fin cfg0.N, win0_0.index t (0 : Fin 2) = 0 ∧ win0_0.index t (1 : Fin 2) = 0
    ∧ win0_1.index t (0 : Fin 3) = t.val ∧ win0_1.index t (1 : Fin 3) = 0 ∧ win0_1.index t (2 : Fin 3) = 0 :=
  (by decide +kernel : ∀ t : Fin grid0.N, _)

/-- WHAT POINT `t` WRITES BACK is block `t` of the table repeated over the batch. -/
theorem flushed_eq (c : Dev nD) (t : Fin cfg0.N) :
    (dats m 0 c).flushed 1 t = ((cfg0.win 1).blk t).view.read (Elt F) (spread (V m c main_v18)) := by
  rw [Value.flushed1]
  obtain ⟨e0, e1, e2, e3, e4⟩ := block_positions t
  funext j
  show out0_1 (iblk m c 0 t) j = V m c main_v18 (rowCol (((cfg0.win 1).blk t).view.emb j))
  refine (block_apply (iblk m c 0 t) j).trans ?_
  show V m c main_v18 (((cfg0.win 0).blk t).view.emb (Value.ix1_0 j)) = V m c main_v18 (rowCol (((cfg0.win 1).blk t).view.emb j))
  refine congrArg (V m c main_v18) ?_
  funext a; apply Fin.ext
  match a with
  | ⟨0, _⟩ => show win0_0.index t (0 : Fin 2) * 386 + 1 * (j 1).val = win0_1.index t (1 : Fin 3) * 386 + 1 * (j 1).val; omega
  | ⟨1, _⟩ => show win0_0.index t (1 : Fin 2) * 512 + 1 * (j 2).val = win0_1.index t (2 : Fin 3) * 512 + 1 * (j 2).val; omega

/-- An index of the result is in point `t`'s block iff each coordinate is in the block's range on its axis. -/
theorem mem_block (t : Fin cfg0.N) (i : S128x386x512.Idx) :
    i ∈ ((cfg0.win 1).blk t).view.set ↔ ∀ a : Fin 3, win0_1.index t a * S16x386x512.size a ≤ (i a).val ∧ (i a).val < win0_1.index t a * S16x386x512.size a + S16x386x512.size a := by
  show i ∈ ((View.whole main_v19).slice (win0_1.rect t)).set ↔ _
  rw [View.set_slice_whole, Rect.mem_set_unit]
  exact Iff.rfl

/-- Every index of the result is in some point's block: batch entry `b` is in the block of point `b / 16`. -/
theorem covered (i : S128x386x512.Idx) :
    ∃ t : Fin cfg0.N, (cfg0.win 1).flush t = true ∧ i ∈ ((cfg0.win 1).blk t).view.set := by
  have hi0 : (i 0).val < 128 := (i 0).isLt
  have hi1 : (i 1).val < 386 := (i 1).isLt
  have hi2 : (i 2).val < 512 := (i 2).isLt
  have hN : grid0.N = 8 := N_0
  obtain ⟨t, ht⟩ : ∃ t : Fin cfg0.N, t.val = (i 0).val / 16 := ⟨⟨(i 0).val / 16, by show (i 0).val / 16 < grid0.N; omega⟩, rfl⟩
  obtain ⟨-, -, e2, e3, e4⟩ := block_positions t
  refine ⟨t, flush0_1 t, ?_⟩
  rw [mem_block]
  intro a
  match a with
  | ⟨0, _⟩ => show win0_1.index t (0 : Fin 3) * 16 ≤ (i 0).val ∧ (i 0).val < win0_1.index t (0 : Fin 3) * 16 + 16; omega
  | ⟨1, _⟩ => show win0_1.index t (1 : Fin 3) * 386 ≤ (i 1).val ∧ (i 1).val < win0_1.index t (1 : Fin 3) * 386 + 386; omega
  | ⟨2, _⟩ => show win0_1.index t (2 : Fin 3) * 512 ≤ (i 2).val ∧ (i 2).val < win0_1.index t (2 : Fin 3) * 512 + 512; omega

/-- THE RESULT ARRAY after the run: the table as the grid finds it, repeated for every batch entry. -/
theorem final (c : Dev nD) : (dats m 0 c).arrAt 1 cfg0.N = spread (V m c main_v18) :=
  (dats m 0 c).arrAt_eq_of_cover 1 (spread (V m c main_v18)) (fun t _ => flushed_eq m c t) covered

/-- The table as the grid finds it is `rows` of `pe` as launched: the host operations before the grid, composed. -/
theorem table_eq (c : Dev nD) :
    (V m c main_v18 : S386x512.Idx → Elt F .f32) = rows (m ((c : Thread nD τ).loc main_arg2)) := by
  dsimp only [V, hostOps0]
  -- the last operation stacks the two pieces
  after_results_simp
  unfold Cert.PosTable.rows
  refine Cert.PosTable.stack_congr _ _ ?_ ?_
  · -- the longer piece: a zero row above the 256 selected rows
    after_results_simp
    unfold Cert.PosTable.piece256
    refine Cert.PosTable.stack_congr _ _ ?_ ?_
    · after_results_simp
      rfl
    · after_results_simp
      rfl
  · -- the shorter piece: a zero row above the 128 selected rows
    after_results_simp
    unfold Cert.PosTable.piece128
    refine Cert.PosTable.stack_congr _ _ ?_ ?_
    · after_results_simp
      rfl
    · after_results_simp
      rfl

/-- Every weakly fair execution of the kernel's program terminates with the result array at the table of `pe`
    repeated for every batch entry, the arguments unchanged. -/
theorem run : θ_run defs (onTc (τ := τ) (main (F := F))) ⟨m, fun _ => 0, ρ⟩ fun r => ∀ c : Dev nD,
      r.2.mem ((c : Thread nD τ).loc main_v19) = spread (rows (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((final m c).trans (congrArg spread (table_eq m c))), (h c).2⟩)
    (Value.run_blocks m ρ)

end Cert.KernelIdeal.Repeated

end
-- ==== Proof.RefRun.lean ====
/-
  The reference's run, read back.

  The reference is a straight line of 29 host operations: the two constant lists of row numbers, their wrap
  modulo the table's height, two selections of rows of `pe`, a zero row put in front of each, the two pieces
  stacked into the 386 × 512 table (PosTable.lean: `rows` of `pe`, the same operations in the same order as
  the kernel's program applies before its grid), and two final steps that give the table a leading axis of
  extent one and stretch it to the 128 batch entries.  Every weakly fair execution terminates with the result
  at that composed term of `pe`, the arguments unchanged.
-/
import proofs.«161266_j21749714387279_2_alg».proof.Proof.Gen.ReferenceIdeal
import proofs.«161266_j21749714387279_2_alg».proof.Proof.PosTable
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The reference's 29 operations, in order. -/
abbrev ops : List (HloOp τ sig (Elt F)) :=
  [ nullary main_c (fun i => lit0 (S256.rowMajor i)),
    nullary main_c_0 (fun i => lit1 (S128.rowMajor i)),
    nullary main_cst (constant S_ .f32 0x00000000#32),
    unary main_cst main_v0 (broadcastInDim S1x512 ![] bcast_S_S1x512 : (⟨S_, .f32⟩ : BufTy).Contents (Elt F) → (⟨S1x512, .f32⟩ : BufTy).Contents (Elt F)),
    nullary main_c_1 (constantI S_ 32 0#32),
    unary main_c_1 main_v1 (broadcastInDim S256 ![] bcast_S_S256 : (⟨S_, .i32⟩ : BufTy).Contents (Elt F) → (⟨S256, .i32⟩ : BufTy).Contents (Elt F)),
    binary main_c main_v1 main_v2 (cmpi .slt : (⟨S256, .i32⟩ : BufTy).Contents (Elt F) → (⟨S256, .i32⟩ : BufTy).Contents (Elt F) → (⟨S256, .i1⟩ : BufTy).Contents (Elt F)),
    nullary main_c_2 (constantI S_ 32 512#32),
    unary main_c_2 main_v3 (broadcastInDim S256 ![] bcast_S_S256 : (⟨S_, .i32⟩ : BufTy).Contents (Elt F) → (⟨S256, .i32⟩ : BufTy).Contents (Elt F)),
    binary main_c main_v3 main_v4 (addi : (⟨S256, .i32⟩ : BufTy).Contents (Elt F) → (⟨S256, .i32⟩ : BufTy).Contents (Elt F) → (⟨S256, .i32⟩ : BufTy).Contents (Elt F)),
    ternary main_v2 main_v4 main_c main_v5 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    unary main_v5 main_v6 (broadcastInDim S256x1 ![0] bcast_S256_S256x1_0 : (⟨S256, .i32⟩ : BufTy).Contents (Elt F) → (⟨S256x1, .i32⟩ : BufTy).Contents (Elt F)),
    binary main_arg2 main_v6 main_v7 ((fun x i => Host.gather gather_S512x512_S256x1_S256x512_1_0_n_n_0_1_1512 x i) : (⟨S512x512, .f32⟩ : BufTy).Contents (Elt F) → (⟨S256x1, .i32⟩ : BufTy).Contents (Elt F) → (⟨S256x512, .f32⟩ : BufTy).Contents (Elt F)),
    binary main_v0 main_v7 main_v8 ((fun a b => concatenate S257x512 0 [⟨S1x512, a⟩, ⟨S256x512, b⟩] concatenates_S1x512_S256x512_S257x512_d0) : (⟨S1x512, .f32⟩ : BufTy).Contents (Elt F) → (⟨S256x512, .f32⟩ : BufTy).Contents (Elt F) → (⟨S257x512, .f32⟩ : BufTy).Contents (Elt F)),
    nullary main_cst_3 (constant S_ .f32 0x00000000#32),
    unary main_cst_3 main_v9 (broadcastInDim S1x512 ![] bcast_S_S1x512 : (⟨S_, .f32⟩ : BufTy).Contents (Elt F) → (⟨S1x512, .f32⟩ : BufTy).Contents (Elt F)),
    nullary main_c_4 (constantI S_ 32 0#32),
    unary main_c_4 main_v10 (broadcastInDim S128 ![] bcast_S_S128 : (⟨S_, .i32⟩ : BufTy).Contents (Elt F) → (⟨S128, .i32⟩ : BufTy).Contents (Elt F)),
    binary main_c_0 main_v10 main_v11 (cmpi .slt : (⟨S128, .i32⟩ : BufTy).Contents (Elt F) → (⟨S128, .i32⟩ : BufTy).Contents (Elt F) → (⟨S128, .i1⟩ : BufTy).Contents (Elt F)),
    nullary main_c_5 (constantI S_ 32 512#32),
    unary main_c_5 main_v12 (broadcastInDim S128 ![] bcast_S_S128 : (⟨S_, .i32⟩ : BufTy).Contents (Elt F) → (⟨S128, .i32⟩ : BufTy).Contents (Elt F)),
    binary main_c_0 main_v12 main_v13 (addi : (⟨S128, .i32⟩ : BufTy).Contents (Elt F) → (⟨S128, .i32⟩ : BufTy).Contents (Elt F) → (⟨S128, .i32⟩ : BufTy).Contents (Elt F)),
    ternary main_v11 main_v13 main_c_0 main_v14 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    unary main_v14 main_v15 (broadcastInDim S128x1 ![0] bcast_S128_S128x1_0 : (⟨S128, .i32⟩ : BufTy).Contents (Elt F) → (⟨S128x1, .i32⟩ : BufTy).Contents (Elt F)),
    binary main_arg2 main_v15 main_v16 ((fun x i => Host.gather gather_S512x512_S128x1_S128x512_1_0_n_n_0_1_1512 x i) : (⟨S512x512, .f32⟩ : BufTy).Contents (Elt F) → (⟨S128x1, .i32⟩ : BufTy).Contents (Elt F) → (⟨S128x512, .f32⟩ : BufTy).Contents (Elt F)),
    binary main_v9 main_v16 main_v17 ((fun a b => concatenate S129x512 0 [⟨S1x512, a⟩, ⟨S128x512, b⟩] concatenates_S1x512_S128x512_S129x512_d0) : (⟨S1x512, .f32⟩ : BufTy).Contents (Elt F) → (⟨S128x512, .f32⟩ : BufTy).Contents (Elt F) → (⟨S129x512, .f32⟩ : BufTy).Contents (Elt F)),
    binary main_v8 main_v17 main_v18 ((fun a b => concatenate S386x512 0 [⟨S257x512, a⟩, ⟨S129x512, b⟩] concatenates_S257x512_S129x512_S386x512_d0) : (⟨S257x512, .f32⟩ : BufTy).Contents (Elt F) → (⟨S129x512, .f32⟩ : BufTy).Contents (Elt F) → (⟨S386x512, .f32⟩ : BufTy).Contents (Elt F)),
    unary main_v18 main_v19 (broadcastInDim S1x386x512 ![1, 2] bcast_S386x512_S1x386x512_1_2 : (⟨S386x512, .f32⟩ : BufTy).Contents (Elt F) → (⟨S1x386x512, .f32⟩ : BufTy).Contents (Elt F)),
    unary main_v19 main_v20 (broadcastInDim S128x386x512 ![0, 1, 2] bcast_S1x386x512_S128x386x512_0_1_2 : (⟨S1x386x512, .f32⟩ : BufTy).Contents (Elt F) → (⟨S128x386x512, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., nullary_bufs_sub .., unary_bufs_sub .., nullary_bufs_sub .., unary_bufs_sub ..,
   binary_bufs_sub .., nullary_bufs_sub .., unary_bufs_sub .., binary_bufs_sub .., ternary_bufs_sub .., unary_bufs_sub ..,
   binary_bufs_sub .., binary_bufs_sub .., nullary_bufs_sub .., unary_bufs_sub .., nullary_bufs_sub .., unary_bufs_sub ..,
   binary_bufs_sub .., nullary_bufs_sub .., unary_bufs_sub .., binary_bufs_sub .., ternary_bufs_sub .., unary_bufs_sub ..,
   binary_bufs_sub .., binary_bufs_sub .., binary_bufs_sub .., unary_bufs_sub .., unary_bufs_sub ..⟩

/-- The result buffer after the 29 operations: the table of `pe` given a leading unit axis and stretched over the
    batch. -/
theorem result_eq (m : (ℓ : Loc nD τ sig) → Buf (Elt F) ℓ) (c : Dev nD) :
    after (ops (F := F)) (launchContents m c) (Proc.devRef .tc main_v20)
      = broadcastInDim S128x386x512 ![0, 1, 2] bcast_S1x386x512_S128x386x512_0_1_2
          (broadcastInDim S1x386x512 ![1, 2] bcast_S386x512_S1x386x512_1_2
            (Cert.PosTable.rows (m ((c.tc : Thread nD τ).loc main_arg2)))) := by
  -- the last two operations add the unit axis and stretch it; below them the last stack of the two pieces
  after_results_simp
  refine congrArg _ (congrArg _ ?_)
  unfold Cert.PosTable.rows
  refine Cert.PosTable.stack_congr _ _ ?_ ?_
  · -- the longer piece: a zero row above the 256 selected rows
    after_results_simp
    unfold Cert.PosTable.piece256
    refine Cert.PosTable.stack_congr _ _ ?_ ?_
    · after_results_simp
      rfl
    · after_results_simp
      rfl
  · -- the shorter piece: a zero row above the 128 selected rows
    after_results_simp
    unfold Cert.PosTable.piece128
    refine Cert.PosTable.stack_congr _ _ ?_ ?_
    · after_results_simp
      rfl
    · after_results_simp
      rfl

/-- Every weakly fair execution of the reference terminates with the result at the table of `pe`, given a leading
    unit axis and stretched over the batch, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v20)
          = broadcastInDim S128x386x512 ![0, 1, 2] bcast_S1x386x512_S128x386x512_0_1_2
              (broadcastInDim S1x386x512 ![1, 2] bcast_S386x512_S1x386x512_1_2
                (Cert.PosTable.rows (m ((c.tc : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v20).trans (result_eq m c),
      (h c main_arg0).trans (by after_results),
      (h c main_arg1).trans (by after_results),
      (h c main_arg2).trans (by after_results)⟩)
    (run_seq scopedRefs_eq scopedSems_eq defs main (fun _ => ops) main_eq (fun _ => ops_sub) m ρ)

end Cert.ReferenceIdeal.HostRun

end
-- ==== Proof.lean ====
/-
  Both programs return the same array: a 386 × 512 table of rows of `pe`, repeated for each of the 128 batch
  entries.

  The table (Proof/PosTable.lean, `rows`) is a zero row, the rows `0, 1, …, 255` of `pe`, another zero row, and the
  rows `0, 2, …, 252, 255` of `pe`.  Both programs build it by the same host operations in the same order.  The
  kernel's program then copies it into every batch entry block by block over a grid of 8 points, 16 batch entries
  per point (Proof/KernelValue.lean); the reference gives it a leading axis of extent one and stretches that axis
  to 128 (Proof/RefRun.lean).  Either way entry (b, r, c) of the result is entry (r, c) of the table
  (`broadcast_eq_spread`), so the results are equal entry by entry, whatever the entries of `pe` are: no entry of
  `pe` enters any arithmetic, and the hypothesis that the inputs are finite is not used.  The other two arguments
  are not read at all.

  The idealization rewrote nothing in the kernel's program, so there is nothing to preserve.
-/
import proofs.«161266_j21749714387279_2_alg».proof.Defs
import proofs.«161266_j21749714387279_2_alg».proof.Proof.Gen.Kernel
import proofs.«161266_j21749714387279_2_alg».proof.Proof.Gen.Kernel.Frame
import proofs.«161266_j21749714387279_2_alg».proof.Proof.Gen.KernelIdeal
import proofs.«161266_j21749714387279_2_alg».proof.Proof.Gen.KernelIdeal.Frame
import proofs.«161266_j21749714387279_2_alg».proof.Proof.Gen.ReferenceIdeal
import proofs.«161266_j21749714387279_2_alg».proof.Proof.Gen.Pre_finite_inputs
import proofs.«161266_j21749714387279_2_alg».proof.Proof.PosTable
import proofs.«161266_j21749714387279_2_alg».proof.Proof.KernelValue
import proofs.«161266_j21749714387279_2_alg».proof.Proof.RefRun
import Idealize.ShloMosaic.Adequacy
import Idealize.ShloMosaic.Init

noncomputable section

namespace Cert.Proof

open Idealize.ShloMosaic Idealize.ShloMosaic.TcCoe Idealize.SL.Sem

/-- The kernel's program, word by word: it terminates and leaves its arguments as they were. -/
theorem frame_kernel : Cert.frame_Kernel := fun m ρ _ => Cert.Kernel.Gen.frame m ρ

/-- The same at the exact reading. -/
theorem frame_kernelIdeal : Cert.frame_KernelIdeal := fun m ρ _ => Cert.KernelIdeal.Gen.frame m ρ

/-- The reference terminates and leaves its arguments as they were: its run, the result forgotten. -/
theorem frame_referenceIdeal : Cert.frame_ReferenceIdeal := fun m ρ _ =>
  (θ_run Cert.ReferenceIdeal.defs _ _).mono (fun _ h c => (h c).2) (Cert.ReferenceIdeal.HostRun.run (F := Ideal) m ρ)

/-- Nothing was rewritten, so nothing is to be preserved. -/
theorem preserves : Cert.preserves_Kernel_KernelIdeal := trivial

/-- From memories that agree on the arguments both programs end with the table of `pe` repeated over the batch:
    the kernel's program by its grid, the reference by its two stretching steps, which read the same way. -/
theorem algebraic : Cert.algebraic_KernelIdeal_ReferenceIdeal := by
  intro m ρ m' ρ' _ hagree
  refine ⟨fun c => Cert.PosTable.spread (Cert.PosTable.rows
      (m ((c.tc : Thread Cert.KernelIdeal.nD Cert.KernelIdeal.τ).loc Cert.KernelIdeal.main_arg2))),
    Cert.KernelIdeal.Repeated.run (F := Ideal) m ρ, ?_⟩
  refine (θ_run Cert.ReferenceIdeal.defs _ _).mono (fun _ h c => ⟨(h c).1.trans ?_, (h c).2⟩)
    (Cert.ReferenceIdeal.HostRun.run (F := Ideal) m' ρ')
  rw [(hagree c).2.2]
  exact Cert.PosTable.broadcast_eq_spread _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
